-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x1024 : Shape := ⟨2, ![16, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel

variable [Facts]

def fn {F : FTy → Type} [FloatOps F] (main_arg0 : FVec F S16x4096x1024 .f32) (main_arg1 : IVec S16x1024 1) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  main_v3
-- ==== Kernel.lean ====
abbrev S16x4096x1024 : Shape := ⟨3, ![16, 4096, 1024]⟩
abbrev S16x1024 : Shape := ⟨2, ![16, 1024]⟩
abbrev S16x1x1024 : Shape := ⟨3, ![16, 1, 1024]⟩
abbrev S1x1024x1024 : Shape := ⟨3, ![1, 1024, 1024]⟩
abbrev S1x1x1024 : Shape := ⟨3, ![1, 1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .i1⟩
  | .hbm, ⟨2, _⟩ => ⟨S16x1024, .f32⟩
  | .hbm, ⟨3, _⟩ => ⟨S16x1x1024, .f32⟩
  | .hbm, ⟨4, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x1024, .f32⟩
  | .local _ .vmem, ⟨5, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S16x1024_S16x1x1024_0_2 : S16x1024.BroadcastsInDim S16x1x1024 (![0, 2] : Fin 2 → Fin S16x1x1024.rank)
  inb_S1x1024x1024_S1x1024x1024_0_0_0 : ∀ a, (![0, 0, 0] : Fin 3 → Nat) a + S1x1024x1024.size a ≤ S1x1024x1024.size a
  h_S1x1024x1024 : 0 < S1x1024x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  broadcasts_S1x1x1024_S1x1024x1024 : S1x1x1024.Broadcasts S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x4096x1024.size a
  hwx0_0 : ∀ i : grid0.Coords, EltTy.bits .f32 = 32 ∨ (Rect.block (s := S16x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x4096x1024.size a
  hwx0_2 : ∀ i : grid0.Coords, EltTy.bits .f32 = 32 ∨ (Rect.block (s := S16x4096x1024) S1x1024x1024.size (cc0_transform_2 i) (hinb0_2 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x1024 : Shape := ⟨2, ![16, 1024]⟩
abbrev S16x1x1024 : Shape := ⟨3, ![16, 1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .i1⟩
  | .hbm, ⟨2, _⟩ => ⟨S16x1x1024, .i1⟩
  | .hbm, ⟨3, _⟩ => ⟨S16x1x1024, .f32⟩
  | .hbm, ⟨4, _⟩ => ⟨S16x4096x1024, .f32⟩
  | .hbm, ⟨5, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S16x1024_S16x1x1024_0_2 : S16x1024.BroadcastsInDim S16x1x1024 (![0, 2] : Fin 2 → Fin S16x1x1024.rank)
  bcast_S16x1x1024_S16x4096x1024_0_1_2 : S16x1x1024.BroadcastsInDim S16x4096x1024 (![0, 1, 2] : Fin 3 → Fin S16x4096x1024.rank)

variable [Facts₀]

class Facts : Prop extends Facts₀ where

variable [Facts]
-- ==== Proof.ColumnMask.lean ====
/-
  The function both programs compute. The activations `h` have shape [16, 4096, 1024] (sample, position, feature) and
  the keep mask `k` has shape [16, 1024] (sample, feature). Every entry of `h` is multiplied by the mask bit of its own
  sample and feature, read as a number (one for kept, zero for dropped), whatever its position:

      out[b, t, d] = h[b, t, d] · float(k[b, d]).

  Both programs spend exactly this one product per entry, on exactly these two operands; they differ only in where the
  bit is turned into a number (before or after it is given its unit position axis) and in how the 4096 positions are
  visited (all at once, or 1024 at a time). So the two results are equal entry by entry with no algebra at all, at every
  reading of the float operations, and finiteness of `h` is never used.
-/
import Idealize.ShloMosaic.PureOps

noncomputable section

namespace Cert.ColumnMask

open Idealize.ShloMosaic

/-- The activations' shape: 16 samples, 4096 positions, 1024 features. -/
abbrev SAct : Shape := ⟨3, ![16, 4096, 1024]⟩
/-- The keep mask's shape: 16 samples, 1024 features. -/
abbrev SKeep : Shape := ⟨2, ![16, 1024]⟩

variable {F : FTy → Type} [FloatOps F]

/-- The mask entry an activation entry meets: same sample, same feature, the position forgotten. -/
abbrev maskIdx (i : SAct.Idx) : SKeep.Idx := fun a => match a with
  | ⟨0, _⟩ => ⟨(i 0).val, (i 0).isLt⟩
  | ⟨1, _⟩ => ⟨(i 2).val, (i 2).isLt⟩

/-- Every activation times its sample-and-feature keep bit read as a number. -/
def masked (h : Vec F SAct .f32) (k : Vec F SKeep .i1) : Vec F SAct .f32 :=
  fun i => FloatOps.mulf (h i) (FloatOps.uitofp .f32 (k (maskIdx i)))

theorem masked_apply (h : Vec F SAct .f32) (k : Vec F SKeep .i1) (i : SAct.Idx) :
    masked h k i = FloatOps.mulf (h i) (FloatOps.uitofp .f32 (k (maskIdx i))) := rfl

end Cert.ColumnMask

end
-- ==== Proof.ReferenceMasks.lean ====
/-
  The reference is the masked product. It gives the mask a unit position axis ([16, 1024] → [16, 1, 1024]), turns the
  bits into numbers, repeats them along the 4096 positions and multiplies. Read at an entry (b, t, d): the repeat reads
  position 0 of the unit axis, the inserted axis reads mask entry (b, d), so the entry is h[b, t, d] · float(k[b, d]).
-/
import proofs.«132885_j71949292143167_1_alg».proof.Proof.Gen.ReferenceIdeal.Read
import proofs.«132885_j71949292143167_1_alg».proof.Proof.ColumnMask

noncomputable section

namespace Cert.ReferenceIdeal.RefValue

open Cert.ReferenceIdeal Cert.ReferenceIdeal.Gen Cert.ReferenceIdeal.Read Cert.ColumnMask Idealize.ShloMosaic

variable {F : FTy → Type} [FloatOps F]

/-- Through the two broadcasts, entry (b, t, d) of the result meets mask entry (b, d). -/
theorem idx_through (i : S16x4096x1024.Idx) : idx_main_v0 (idx_main_v2 i) = maskIdx i :=
  funext fun a => Fin.ext (by match a with | ⟨0, _⟩ => rfl | ⟨1, _⟩ => rfl)

/-- The reference's last stage, entry by entry, is the masked product of its two arguments. -/
theorem result_eq (h : Vec F S16x4096x1024 .f32) (k : Vec F S16x1024 .i1) :
    val_main_v3 (F := F) h k = masked h k := by
  funext i
  rw [val_main_v3_apply, val_main_v2_apply, val_main_v1_apply, val_main_v0_apply, idx_through, masked_apply]

end Cert.ReferenceIdeal.RefValue

end
-- ==== Proof.MaskOperand.lean ====
/-
  What the kernel's second operand holds when the grid starts. Before the grid the host turns the keep bits into numbers
  ([16, 1024]) and gives them a unit position axis ([16, 1, 1024]). So entry (b, 0, d) of that operand is float(k[b, d]):
  the inserted axis carries nothing, sample and feature pass through.
-/
import proofs.«132885_j71949292143167_1_alg».proof.Proof.Gen.KernelIdeal.Frame
import proofs.«132885_j71949292143167_1_alg».proof.Proof.ColumnMask
import Idealize.ShloMosaic.Lib.StableHlo.Run
import Idealize.ShloMosaic.Lib.Pipeline.Value

noncomputable section

namespace Cert.KernelIdeal.KernelValue

open Cert.KernelIdeal Cert.KernelIdeal.Gen Cert.ColumnMask
open Idealize.ShloMosaic Idealize.ShloMosaic.TcCoe Idealize.SL.Sem Idealize.ShloMosaic.StableHlo

variable {F : FTy → Type} [FloatOps F]
variable (m : (ℓ : Loc nD τ sig) → Buf (Elt F) ℓ)

/-- The mask entry under an entry of the widened mask [16, 1, 1024]: its sample and its feature. -/
abbrev underUnit (x : S16x1x1024.Idx) : S16x1024.Idx := fun a => match a with
  | ⟨0, _⟩ => ⟨(x 0).val, (x 0).isLt⟩
  | ⟨1, _⟩ => ⟨(x 2).val, (x 2).isLt⟩

/-- The widened mask as the grid finds it: the keep bits as numbers, then the unit axis inserted. -/
theorem maskArray (c : Dev nD) :
    (V m c main_v1 : Vec F S16x1x1024 .f32)
      = broadcastInDim S16x1x1024 ![0, 2] bcast_S16x1024_S16x1x1024_0_2
          (uitofp .f32 (m ((c : Thread nD τ).loc main_arg1) : Vec F S16x1024 .i1)) := by
  dsimp only [Gen.V, Gen.hostOps0]
  after_results

/-- Entry (b, 0, d) of the widened mask is the keep bit (b, d) as a number. -/
theorem maskArray_apply (c : Dev nD) (x : S16x1x1024.Idx) :
    (V m c main_v1 : Vec F S16x1x1024 .f32) x
      = FloatOps.uitofp .f32 ((m ((c : Thread nD τ).loc main_arg1) : Vec F S16x1024 .i1) (underUnit x)) := by
  rw [maskArray]
  exact broadcastInDim_apply _ bcast_S16x1024_S16x1x1024_0_2 _ x (underUnit x) (fun a => match a with
    | ⟨0, _⟩ => by show (x 0).val = if (16 : Nat) = 1 then 0 else (x 0).val; rw [if_neg (by decide)]
    | ⟨1, _⟩ => by show (x 2).val = if (1024 : Nat) = 1 then 0 else (x 2).val; rw [if_neg (by decide)])

end Cert.KernelIdeal.KernelValue

end
-- ==== Proof.BlocksToArray.lean ====
/-
  From the grid's blocks to the whole result. The grid has 16 × 4 points; point (b, s) works on sample b and on the
  positions 1024·s … 1024·s + 1023. It reads that slab of the activations (all 1024 features) and row b of the widened
  mask, repeats the mask row over the slab's 1024 positions, multiplies, and writes the slab of the result back.

  * Inside one block, entry (0, r, d) is (activation block)[0, r, d] · (mask block)[0, 0, d].
  * The activation block and the result block sit at the same place of their arrays, and the mask block is row b; so the
    entry lands at (b, 1024·s + r, d) and is h[b, 1024·s + r, d] · float(k[b, d]): the block of the masked product.
  * Entry (b, t, d) of the result belongs to the block of point (b, t / 1024): the 64 blocks cover the array, which
    therefore ends as the masked product of the two arguments.
-/
import proofs.«132885_j71949292143167_1_alg».proof.Proof.Gen.KernelIdeal.Value
import proofs.«132885_j71949292143167_1_alg».proof.Proof.MaskOperand

set_option maxRecDepth 16384

noncomputable section

namespace Cert.KernelIdeal.KernelValue

open Cert.KernelIdeal Cert.KernelIdeal.Gen Cert.KernelIdeal.Value Cert.ColumnMask
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zeros3 : (![0, 0, 0] : Fin 3 → Nat) = fun _ => 0 := funext fun a => by fin_cases a <;> rfl

/-- One point's result block, entry by entry, over any two blocks: the activation at the same place times the mask
    block's entry of the same feature (`ix2_1`: position 0 of the mask block's unit axes). -/
theorem block_entry (P0 : Vec F S1x1024x1024 .f32) (P1 : Vec F S1x1x1024 .f32) (j : S1x1024x1024.Idx) :
    out0_2 P0 P1 j = FloatOps.mulf (P0 j) (P1 (ix2_1 j)) := by
  have hj0 : (j 0).val < 1 := (j 0).isLt
  unfold out0_2
  simp only [View.ld_unit_zero (S := S1x1024x1024) zeros3, View.ld_unit_zero (S := S1x1x1024) zeros3]
  rw [canon2_eq]
  show FloatOps.mulf (P0 (ix2_0 j)) (P1 (ix2_1 j)) = _
  have e : ix2_0 j = j := funext fun a => Fin.ext (by
    match a with
    | ⟨0, _⟩ => show 0 = (j 0).val; omega
    | ⟨1, _⟩ => rfl
    | ⟨2, _⟩ => rfl)
  rw [e]

/-- Where the three blocks of a point sit: the activation block where the result block is; the mask block in the row of
    the same sample, at the start of its other two axes; the result blocks within 16 samples × 4 slabs, whole in the
    feature axis. Decided over the 64 points. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 3) = win0_2.index t (0 : Fin 3)
    ∧ win0_1.index t (2 : Fin 3) = 0
    ∧ win0_2.index t (2 : Fin 3) = 0
    ∧ win0_2.index t (0 : Fin 3) ≤ 15
    ∧ win0_2.index t (1 : Fin 3) ≤ 3 :=
  (by decide +kernel : ∀ t : Fin grid0.N, _)

/-- Every (sample, slab) pair is some point's result block. -/
theorem idx_onto : ∀ (q0 : Fin 16) (q1 : Fin 4), ∃ t : Fin cfg0.N, win0_2.index t = ![q0.val, q1.val, 0] :=
  (by decide +kernel : ∀ (q0 : Fin 16) (q1 : Fin 4), ∃ t : Fin grid0.N, win0_2.index t = ![q0.val, q1.val, 0])

/-- What point `t` writes back is block `t` of the masked product of the activations and the keep mask. -/
theorem flushed_eq (c : Dev nD) (t : Fin cfg0.N) :
    (dats m 0 c).flushed 2 t
      = ((cfg0.win 2).blk t).view.read (Elt F) (masked (V m c main_arg0) (m ((c : Thread nD τ).loc main_arg1))) := by
  rw [flushed2]
  obtain ⟨e0, e1, e2, e3, e4, e5, e6, e7⟩ := idx_facts t
  refine funext fun (j : S1x1024x1024.Idx) => ?_
  have hj0 : (j 0).val < 1 := (j 0).isLt
  have hj1 : (j 1).val < 1024 := (j 1).isLt
  have hj2 : (j 2).val < 1024 := (j 2).isLt
  show out0_2 (iblk m c 0 t) (iblk m c 1 t) j
    = masked (V m c main_arg0) (m ((c : Thread nD τ).loc main_arg1)) (((cfg0.win 2).blk t).view.emb j)
  refine (block_entry (iblk m c 0 t) (iblk m c 1 t) j).trans ?_
  show FloatOps.mulf (V m c main_arg0 (((cfg0.win 0).blk t).view.emb j))
      (V m c main_v1 (((cfg0.win 1).blk t).view.emb (ix2_1 j)))
    = FloatOps.mulf (V m c main_arg0 (((cfg0.win 2).blk t).view.emb j))
      (FloatOps.uitofp .f32 (m ((c : Thread nD τ).loc main_arg1) (maskIdx (((cfg0.win 2).blk t).view.emb j))))
  have h0 : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 1024 + 1 * (j 2).val = win0_2.index t (2 : Fin 3) * 1024 + 1 * (j 2).val; omega
  have h1 : underUnit (((cfg0.win 1).blk t).view.emb (ix2_1 j)) = maskIdx (((cfg0.win 2).blk t).view.emb j) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (2 : Fin 3) * 1024 + 1 * (j 2).val = win0_2.index t (2 : Fin 3) * 1024 + 1 * (j 2).val; omega
  have hA : V m c main_arg0 (((cfg0.win 0).blk t).view.emb j) = V m c main_arg0 (((cfg0.win 2).blk t).view.emb j) :=
    congrArg (V m c main_arg0) h0
  have hB : V m c main_v1 (((cfg0.win 1).blk t).view.emb (ix2_1 j))
      = FloatOps.uitofp .f32 (m ((c : Thread nD τ).loc main_arg1) (maskIdx (((cfg0.win 2).blk t).view.emb j))) :=
    (maskArray_apply m c _).trans (congrArg (fun q => FloatOps.uitofp .f32 (m ((c : Thread nD τ).loc main_arg1) q)) h1)
  rw [hA, hB]

/-- An entry of the result is in point `t`'s block iff each coordinate is in the block's range on its axis. -/
theorem mem_blk (t : Fin cfg0.N) (i : S16x4096x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v2).slice (win0_2.rect t)).set ↔ _
  rw [View.set_slice_whole, Rect.mem_set_unit]
  exact Iff.rfl

/-- Entry (b, t, d) is in the block of the point for sample b and slab t / 1024. -/
theorem covered (i : S16x4096x1024.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the grid is the masked product of the two arguments. -/
theorem final (c : Dev nD) :
    (dats m 0 c).arrAt 2 cfg0.N
      = masked (m ((c : Thread nD τ).loc main_arg0)) (m ((c : Thread nD τ).loc main_arg1)) := by
  rw [← V_main_arg0 m c]
  exact (dats m 0 c).arrAt_eq_of_cover 2 _ (fun t _ => flushed_eq m c t) covered

/-- The kernel's run: it ends, nothing faults, the result is the masked product of the arguments, and the arguments are
    as they were. -/
theorem run : θ_run defs (onTc (τ := τ) (main (F := F))) ⟨m, fun _ => 0, ρ⟩ fun r => ∀ c : Dev nD,
      r.2.mem ((c : Thread nD τ).loc main_v2)
        = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelValue

end
-- ==== Proof.lean ====
/-
  Dropping feature columns per sample: out[b, t, d] = h[b, t, d] · float(k[b, d]) over h : f32[16, 4096, 1024] and the
  keep mask k : bool[16, 1024].

  The kernel turns the mask into numbers and gives it a unit position axis on the host, then runs a 16 × 4 grid: point
  (b, s) multiplies the slab of 1024 positions 1024·s … of sample b by row b of the widened mask, repeated over the slab.
  The reference widens the mask, turns it into numbers, repeats it over all 4096 positions and multiplies once.

  Entry by entry both are ONE product of the same two operands, h[b, t, d] and float(k[b, d]) (`Proof/ColumnMask.lean`):
  * the reference, read through its two broadcasts, is that product (`Proof/ReferenceMasks.lean`);
  * the kernel's second operand at (b, 0, d) is float(k[b, d]) (`Proof/MaskOperand.lean`), each grid point writes the
    block of the product, and the 64 blocks cover the array (`Proof/BlocksToArray.lean`).
  No law of arithmetic is needed, so finiteness of h is never used. The idealization rewrote nothing, so the kernel's
  text is its own idealization; the three frames are the generated ones (the reference's is its run with the result
  dropped).
-/
import proofs.«132885_j71949292143167_1_alg».proof.Defs
import proofs.«132885_j71949292143167_1_alg».proof.Proof.Gen.Kernel
import proofs.«132885_j71949292143167_1_alg».proof.Proof.Gen.Kernel.Skeleton
import proofs.«132885_j71949292143167_1_alg».proof.Proof.Gen.Kernel.Launch
import proofs.«132885_j71949292143167_1_alg».proof.Proof.Gen.Kernel.Points
import proofs.«132885_j71949292143167_1_alg».proof.Proof.Gen.Kernel.Frame
import proofs.«132885_j71949292143167_1_alg».proof.Proof.Gen.KernelIdeal
import proofs.«132885_j71949292143167_1_alg».proof.Proof.Gen.KernelIdeal.Skeleton
import proofs.«132885_j71949292143167_1_alg».proof.Proof.Gen.KernelIdeal.Launch
import proofs.«132885_j71949292143167_1_alg».proof.Proof.Gen.KernelIdeal.Points
import proofs.«132885_j71949292143167_1_alg».proof.Proof.Gen.KernelIdeal.Frame
import proofs.«132885_j71949292143167_1_alg».proof.Proof.Gen.ReferenceIdeal
import proofs.«132885_j71949292143167_1_alg».proof.Proof.Gen.Pre_finite_inputs
import proofs.«132885_j71949292143167_1_alg».proof.Proof.Gen.KernelIdeal.Value
import proofs.«132885_j71949292143167_1_alg».proof.Proof.Gen.ReferenceIdeal.Run
import proofs.«132885_j71949292143167_1_alg».proof.Proof.Gen.ReferenceIdeal.Read
import proofs.«132885_j71949292143167_1_alg».proof.Proof.ColumnMask
import proofs.«132885_j71949292143167_1_alg».proof.Proof.ReferenceMasks
import proofs.«132885_j71949292143167_1_alg».proof.Proof.MaskOperand
import proofs.«132885_j71949292143167_1_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed runs to its end and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no grid: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized, so there is nothing to preserve. -/
theorem preserves : Cert.preserves_Kernel_KernelIdeal := trivial

/-- On arguments that agree, the kernel's result array and the reference's are the same masked product. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v3_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
